-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1x512 : Shape := ⟨4, ![8, 256, 1, 512]⟩
abbrev S8x1x64x512 : Shape := ⟨4, ![8, 1, 64, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x1x512 : S_.BroadcastsInDim S8x256x1x512 (![] : Fin 0 → Fin S8x256x1x512.rank)
  reducesTo_S8x256x1x512_S_d0_1_2_3 : S8x256x1x512.ReducesTo [0, 1, 2, 3] S_
  h_S_ : 0 < S_.numel
  bcast_S_S8x1x64x512 : S_.BroadcastsInDim S8x1x64x512 (![] : Fin 0 → Fin S8x1x64x512.rank)
  reducesTo_S8x1x64x512_S_d0_1_2_3 : S8x1x64x512.ReducesTo [0, 1, 2, 3] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x640 .f32) (main_arg5 : FVec F S640 .f32) (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S512x640 .f32 := Host.absf main_arg4
  let main_cst_6 : FVec F S_ .f32 := constant S_ .f32 0x7F800000#32
  let main_v20 : FVec F S512x640 .f32 := broadcastInDim S512x640 ![] bcast_S_S512x640 main_cst_6
  let main_v21 : IVec S512x640 1 := cmpf .olt main_v19 main_v20
  let main_c_7 : IVec S_ 1 := constantI S_ 1 1#1
  let main_v22 : IVec S_ 1 := (fun x v => Host.reduce IntOp.andi x v reducesTo_S512x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1024 .f32 := Host.absf main_arg6
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg7 main_v33

def fn {F : FTy → Type} [FloatOps F] (main_arg0 : FVec F S8x256x1x512 .f32) (main_arg1 : FVec F S8x1x64x512 .f32) (main_arg2 : FVec F S512x640 .f32) (main_arg3 : FVec F S640 .f32) (main_arg4 : FVec F S512x640 .f32) (main_arg5 : FVec F S640 .f32) (main_arg6 : FVec F S640x1024 .f32) (main_arg7 : FVec F S1024 .f32) : IVec S_ 1 :=
  let main_v0 : FVec F S8x256x1x512 .f32 := Host.absf main_arg0
  let main_cst : FVec F S_ .f32 := constant S_ .f32 0x7F800000#32
  let main_v1 : FVec F S8x256x1x512 .f32 := broadcastInDim S8x256x1x512 ![] bcast_S_S8x256x1x512 main_cst
  let main_v2 : IVec S8x256x1x512 1 := cmpf .olt main_v0 main_v1
  let main_c : IVec S_ 1 := constantI S_ 1 1#1
  let main_v3 : IVec S_ 1 := (fun x v => Host.reduce IntOp.andi x v reducesTo_S8x256x1x512_S_d0_1_2_3 h_S_) main_v2 main_c
  let main_v4 : FVec F S8x1x64x512 .f32 := Host.absf main_arg1
  let main_cst_0 : FVec F S_ .f32 := constant S_ .f32 0x7F800000#32
  let main_v5 : FVec F S8x1x64x512 .f32 := broadcastInDim S8x1x64x512 ![] bcast_S_S8x1x64x512 main_cst_0
  let main_v6 : IVec S8x1x64x512 1 := cmpf .olt main_v4 main_v5
  let main_c_1 : IVec S_ 1 := constantI S_ 1 1#1
  let main_v7 : IVec S_ 1 := (fun x v => Host.reduce IntOp.andi x v reducesTo_S8x1x64x512_S_d0_1_2_3 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S8x256x1x512 : Shape := ⟨4, ![8, 256, 1, 512]⟩
abbrev S8x1x64x512 : Shape := ⟨4, ![8, 1, 64, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x256x64x1024 : Shape := ⟨4, ![8, 256, 64, 1024]⟩
abbrev S1x16x1x512 : Shape := ⟨4, ![1, 16, 1, 512]⟩
abbrev S1x1x64x512 : Shape := ⟨4, ![1, 1, 64, 512]⟩
abbrev S1x16x64x1024 : Shape := ⟨4, ![1, 16, 64, 1024]⟩
abbrev S16x512 : Shape := ⟨2, ![16, 512]⟩
abbrev S64x512 : Shape := ⟨2, ![64, 512]⟩
abbrev S16x640 : Shape := ⟨2, ![16, 640]⟩
abbrev S1x640 : Shape := ⟨2, ![1, 640]⟩
abbrev S64x640 : Shape := ⟨2, ![64, 640]⟩
abbrev S16x1x640 : Shape := ⟨3, ![16, 1, 640]⟩
abbrev S1x64x640 : Shape := ⟨3, ![1, 64, 640]⟩
abbrev S16x64x640 : Shape := ⟨3, ![16, 64, 640]⟩
abbrev S1024x640 : Shape := ⟨2, ![1024, 640]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S8x256x64x1024, .f32⟩
  | .local _ .vmem, ⟨0, _⟩ => ⟨S1x16x1x512, .f32⟩
  | .local _ .vmem, ⟨1, _⟩ => ⟨S1x16x1x512, .f32⟩
  | .local _ .vmem, ⟨2, _⟩ => ⟨S1x1x64x512, .f32⟩
  | .local _ .vmem, ⟨3, _⟩ => ⟨S1x1x64x512, .f32⟩
  | .local _ .vmem, ⟨4, _⟩ => ⟨S512x640, .f32⟩
  | .local _ .vmem, ⟨5, _⟩ => ⟨S640, .f32⟩
  | .local _ .vmem, ⟨6, _⟩ => ⟨S512x640, .f32⟩
  | .local _ .vmem, ⟨7, _⟩ => ⟨S640, .f32⟩
  | .local _ .vmem, ⟨8, _⟩ => ⟨S640x1024, .f32⟩
  | .local _ .vmem, ⟨9, _⟩ => ⟨S1024, .f32⟩
  | .local _ .vmem, ⟨10, _⟩ => ⟨S1x16x64x1024, .f32⟩
  | .local _ .vmem, ⟨11, _⟩ => ⟨S1x16x64x1024, .f32⟩
  | _, _ => ⟨S8x256x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x16x1x512_S1x16x1x512_0_0_0_0 : ∀ a, (![0, 0, 0, 0] : Fin 4 → Nat) a + S1x16x1x512.size a ≤ S1x16x1x512.size a
  h_S1x16x1x512 : 0 < S1x16x1x512.numel
  shapeCasts_S1x16x1x512_S16x512 : S1x16x1x512.ShapeCasts S16x512
  bitsLt_bf16_f32 : FTy.bits .bf16 < FTy.bits .f32
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  inb_S512x640_S512x640_0_0 : ∀ a, (![0, 0] : Fin 2 → Nat) a + S512x640.size a ≤ S512x640.size a
  h_S512x640 : 0 < S512x640.numel
  inb_S640x1024_S640x1024_0_0 : ∀ a, (![0, 0] : Fin 2 → Nat) a + S640x1024.size a ≤ S640x1024.size a
  h_S640x1024 : 0 < S640x1024.numel
  inb_S640_S640_0 : ∀ a, (![0] : Fin 1 → Nat) a + S640.size a ≤ S640.size a
  h_S640 : 0 < S640.numel
  inb_S1024_S1024_0 : ∀ a, (![0] : Fin 1 → Nat) a + S1024.size a ≤ S1024.size a
  h_S1024 : 0 < S1024.numel
  shapeCasts_S640_S1x640 : S640.ShapeCasts S1x640
  broadcasts_S1x640_S16x640 : S1x640.Broadcasts S16x640
  broadcasts_S1x640_S64x640 : S1x640.Broadcasts S64x640
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  shapeCasts_S16x64x640_S1024x640 : S16x64x640.ShapeCasts S1024x640
  shapeCasts_S1024x1024_S16x64x1024 : S1024x1024.ShapeCasts S16x64x1024
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x640_S16x640_1_0_0_1_n_n_wf : DotDims.WF S16x512 S512x640 S16x640 [1] [0] [0] [1] [] []
  dot_S64x512_S512x640_S64x640_1_0_0_1_n_n_wf : DotDims.WF S64x512 S512x640 S64x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1x512.size a ≤ S8x256x1x512.size a
  hwx0_0 : ∀ i : grid0.Coords, EltTy.bits .f32 = 32 ∨ (Rect.block (s := S8x256x1x512) S1x16x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x512.size a ≤ S8x1x64x512.size a
  hwx0_1 : ∀ i : grid0.Coords, EltTy.bits .f32 = 32 ∨ (Rect.block (s := S8x1x64x512) S1x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .f32 = 32 ∨ (Rect.block (s := S512x640) S512x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S512x640.size a
  hwx0_4 : ∀ i : grid0.Coords, EltTy.bits .f32 = 32 ∨ (Rect.block (s := S512x640) S512x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .f32 = 32 ∨ (Rect.block (s := S640x1024) S640x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x1024.size a ≤ S8x256x64x1024.size a
  hwx0_8 : ∀ i : grid0.Coords, EltTy.bits .f32 = 32 ∨ (Rect.block (s := S8x256x64x1024) S1x16x64x1024.size (cc0_transform_8 i) (hinb0_8 i)).WholeWords (EltTy.packing .f32)

variable [Facts₀]

def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg0) S1x16x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x16x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x1x512 : Shape := ⟨4, ![8, 256, 1, 512]⟩
abbrev S8x1x64x512 : Shape := ⟨4, ![8, 1, 64, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x256x1x640 : Shape := ⟨4, ![8, 256, 1, 640]⟩
abbrev S1x1x1x640 : Shape := ⟨4, ![1, 1, 1, 640]⟩
abbrev S8x1x64x640 : Shape := ⟨4, ![8, 1, 64, 640]⟩
abbrev S8x256x64x640 : Shape := ⟨4, ![8, 256, 64, 640]⟩
abbrev S8x256x64x1024 : Shape := ⟨4, ![8, 256, 64, 1024]⟩
abbrev S1x1x1x1024 : Shape := ⟨4, ![1, 1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S8x256x1x640, .f32⟩
  | .hbm, ⟨9, _⟩ => ⟨S1x1x1x640, .f32⟩
  | .hbm, ⟨10, _⟩ => ⟨S8x256x1x640, .f32⟩
  | .hbm, ⟨11, _⟩ => ⟨S8x256x1x640, .f32⟩
  | .hbm, ⟨12, _⟩ => ⟨S8x1x64x640, .f32⟩
  | .hbm, ⟨13, _⟩ => ⟨S1x1x1x640, .f32⟩
  | .hbm, ⟨14, _⟩ => ⟨S8x1x64x640, .f32⟩
  | .hbm, ⟨15, _⟩ => ⟨S8x1x64x640, .f32⟩
  | .hbm, ⟨16, _⟩ => ⟨S8x256x64x640, .f32⟩
  | .hbm, ⟨17, _⟩ => ⟨S8x256x64x640, .f32⟩
  | .hbm, ⟨18, _⟩ => ⟨S8x256x64x640, .f32⟩
  | .hbm, ⟨19, _⟩ => ⟨S8x256x64x640, .f32⟩
  | .hbm, ⟨20, _⟩ => ⟨S8x256x64x1024, .f32⟩
  | .hbm, ⟨21, _⟩ => ⟨S1x1x1x1024, .f32⟩
  | .hbm, ⟨22, _⟩ => ⟨S8x256x64x1024, .f32⟩
  | .hbm, ⟨23, _⟩ => ⟨S8x256x64x1024, .f32⟩
  | _, _ => ⟨S8x256x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S640_S1x1x1x640_3 : S640.BroadcastsInDim S1x1x1x640 (![3] : Fin 1 → Fin S1x1x1x640.rank)
  bcast_S1x1x1x640_S8x256x1x640_0_1_2_3 : S1x1x1x640.BroadcastsInDim S8x256x1x640 (![0, 1, 2, 3] : Fin 4 → Fin S8x256x1x640.rank)
  bcast_S1x1x1x640_S8x1x64x640_0_1_2_3 : S1x1x1x640.BroadcastsInDim S8x1x64x640 (![0, 1, 2, 3] : Fin 4 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x1x512_S512x640_S8x256x1x640_3_0_012_1_n_n_wf : DotDims.WF S8x256x1x512 S512x640 S8x256x1x640 [3] [0] [0, 1, 2] [1] [] []
  dot_S8x1x64x512_S512x640_S8x1x64x640_3_0_012_1_n_n_wf : DotDims.WF S8x1x64x512 S512x640 S8x1x64x640 [3] [0] [0, 1, 2] [1] [] []
  dot_S8x256x64x640_S640x1024_S8x256x64x1024_3_0_012_1_n_n_wf : DotDims.WF S8x256x64x640 S640x1024 S8x256x64x1024 [3] [0] [0, 1, 2] [1] [] []

variable [Facts₀]

def dot_S8x256x1x512_S512x640_S8x256x1x640_3_0_012_1_n_n : DotDims S8x256x1x512 S512x640 S8x256x1x640 where
  lhsContracting := [3]
  rhsContracting := [0]
  lhsNonContracting := [0, 1, 2]
  rhsNonContracting := [1]
  lhsBatch := []
  rhsBatch := []
  wf := dot_S8x256x1x512_S512x640_S8x256x1x640_3_0_012_1_n_n_wf
def dot_S8x1x64x512_S512x640_S8x1x64x640_3_0_012_1_n_n : DotDims S8x1x64x512 S512x640 S8x1x64x640 where
  lhsContracting := [3]
  rhsContracting := [0]
  lhsNonContracting := [0, 1, 2]
  rhsNonContracting := [1]
  lhsBatch := []
  rhsBatch := []
  wf := dot_S8x1x64x512_S512x640_S8x1x64x640_3_0_012_1_n_n_wf
def dot_S8x256x64x640_S640x1024_S8x256x64x1024_3_0_012_1_n_n : DotDims S8x256x64x640 S640x1024 S8x256x64x1024 where
  lhsContracting := [3]
  rhsContracting := [0]
  lhsNonContracting := [0, 1, 2]
  rhsNonContracting := [1]
  lhsBatch := []
  rhsBatch := []
  wf := dot_S8x256x64x640_S640x1024_S8x256x64x1024_3_0_012_1_n_n_wf

class Facts : Prop extends Facts₀ where

variable [Facts]
-- ==== Proof.JointSpec.lean ====
/-
  The joint network of a transducer as ONE function of its eight argument arrays, over the extended reals.

  An encoder frame (a row of 512 features) and a decoder step (a row of 512 features) are each projected to 640
  hidden units by their own weight matrix and bias; the two projections are added, `tanh` is taken unit by unit, and the
  640 hidden units are projected to 1024 output classes by a third matrix and bias:

      out[b, t, u, v] = Σ_j tanh( (Σ_d enc[b, t, 0, d] · W_enc[d, j] + b_enc[j])
                                + (Σ_d dec[b, 0, u, d] · W_dec[d, j] + b_dec[j]) ) · W_out[j, v]  +  b_out[v].

  Every sum is a finite sum over the contraction index in its natural order and nothing is distributed or cancelled, so
  the formula makes sense at every extended real and the two programs meet it without any finiteness assumption.
-/
import Idealize.ShloMosaic.Lib.ValueIdx
import Idealize.ShloMosaic.PureOps.Ideal

noncomputable section

namespace Cert.Joint

open Idealize.ShloMosaic Idealize.ShloMosaic.ValueIdx
open scoped BigOperators

/-- One projected unit: a row of 512 features against column `j` of a `[512, 640]` weight matrix, plus the bias at `j`. -/
def proj (row : Fin 512 → EReal) (W : (⟨2, ![512, 640]⟩ : Shape).Idx → EReal) (bias : (⟨1, ![640]⟩ : Shape).Idx → EReal)
    (j : Fin 640) : EReal :=
  (∑ d : Fin 512, row d * W (ix2 d j)) + bias (ix1 j)

/-- Hidden unit `j` of an (encoder row, decoder row) pair: `tanh` of the sum of the two projections. -/
def hidden (encRow decRow : Fin 512 → EReal)
    (Wenc : (⟨2, ![512, 640]⟩ : Shape).Idx → EReal) (benc : (⟨1, ![640]⟩ : Shape).Idx → EReal)
    (Wdec : (⟨2, ![512, 640]⟩ : Shape).Idx → EReal) (bdec : (⟨1, ![640]⟩ : Shape).Idx → EReal) (j : Fin 640) : EReal :=
  Ideal.tanh (proj encRow Wenc benc j + proj decRow Wdec bdec j)

/-- Output class `v` of the pair: the hidden units against column `v` of the `[640, 1024]` output matrix, plus its bias. -/
def logit (encRow decRow : Fin 512 → EReal)
    (Wenc : (⟨2, ![512, 640]⟩ : Shape).Idx → EReal) (benc : (⟨1, ![640]⟩ : Shape).Idx → EReal)
    (Wdec : (⟨2, ![512, 640]⟩ : Shape).Idx → EReal) (bdec : (⟨1, ![640]⟩ : Shape).Idx → EReal)
    (Wout : (⟨2, ![640, 1024]⟩ : Shape).Idx → EReal) (bout : (⟨1, ![1024]⟩ : Shape).Idx → EReal) (v : Fin 1024) : EReal :=
  (∑ j : Fin 640, hidden encRow decRow Wenc benc Wdec bdec j * Wout (ix2 j v)) + bout (ix1 v)

/-- The whole result `[8, 256, 64, 1024]`: at `(b, t, u, v)` the encoder row is frame `t` of batch `b` and the decoder
    row is step `u` of batch `b`. -/
def out (enc : (⟨4, ![8, 256, 1, 512]⟩ : Shape).Idx → EReal) (dec : (⟨4, ![8, 1, 64, 512]⟩ : Shape).Idx → EReal)
    (Wenc : (⟨2, ![512, 640]⟩ : Shape).Idx → EReal) (benc : (⟨1, ![640]⟩ : Shape).Idx → EReal)
    (Wdec : (⟨2, ![512, 640]⟩ : Shape).Idx → EReal) (bdec : (⟨1, ![640]⟩ : Shape).Idx → EReal)
    (Wout : (⟨2, ![640, 1024]⟩ : Shape).Idx → EReal) (bout : (⟨1, ![1024]⟩ : Shape).Idx → EReal) :
    (⟨4, ![8, 256, 64, 1024]⟩ : Shape).Idx → EReal := fun i =>
  logit (fun d => enc (ix4 (i 0) (i 1) (0 : Fin 1) d)) (fun d => dec (ix4 (i 0) (0 : Fin 1) (i 2) d))
    Wenc benc Wdec bdec Wout bout (i 3)

end Cert.Joint

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.LibOuterLayout.lean ====
/-
  The layout steps of an outer combination `a[:, None, :] ∘ b[None, :, :]` read at coordinates.

  Two matrices `[a, c]` and `[b, c]` are combined over every pair of rows by giving the first a unit middle axis
  (`[a, 1, c]`), the second a unit leading axis (`[1, b, c]`), and laying both over `[a, b, c]`. Read at `(p, q, r)`
  the first is row `p` of its matrix at column `r` and the second row `q` of its matrix at column `r`. The leading
  unit axis (`[b, c]` viewed as `[1, b, c]`) is the library's `shapeCast_ab_1ab_apply`; here are the middle unit axis
  and the two broadcasts, each with every index written by its coordinates.
-/
import Idealize.ShloMosaic.Lib.ValueLayout

namespace OuterLayout

open Idealize.ShloMosaic Idealize.ShloMosaic.ValueIdx

variable {α : Type}

/-- An `[a, c]` array viewed as `[a, 1, c]` reads, at `(i, u, j)`, the operand at `(i, j)`: the two indices have
    the same row-major position, `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array laid over `[a, b, c]` reads, at `(p, q, r)`, the operand at `(p, 0, r)`: the middle
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array laid over `[a, b, c]` reads, at `(p, q, r)`, the operand at `(0, q, r)`: the leading
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end OuterLayout
-- ==== Proof.LibRank4Rows.lean ====
/-
  Rows of a rank-four array with two unit axes, read at an index given by coordinates: an array `[1, a, 1, c]` viewed
  as the matrix `[a, c]` reads at `(p, r)` its element `(0, p, 0, r)`, and an array `[1, 1, b, c]` viewed as the matrix
  `[b, c]` reads at `(q, r)` its element `(0, 0, q, r)` — a unit axis contributes nothing to the row-major position.
-/
import Idealize.ShloMosaic.Lib.ValueLayout

namespace Cert.Rank4Rows

open Idealize.ShloMosaic Idealize.ShloMosaic.ValueIdx

variable {α : Type}

/-- `[1, a, 1, c]` viewed as `[a, c]`, at `(p, r)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (r : Fin c) :
    shapeCast ⟨2, ![a, c]⟩ x h (ix2 p r) = x (ix4 (0 : Fin 1) p (0 : Fin 1) r) :=
  shapeCast_apply x h _ _ (by
    rw [Shape.rowMajor_val_four, Shape.rowMajor_val_two]
    show ((0 * a + p.val) * 1 + 0) * c + r.val = p.val * c + r.val
    rw [Nat.zero_mul, Nat.zero_add, Nat.mul_one, Nat.add_zero])

/-- `[1, 1, b, c]` viewed as `[b, c]`, at `(q, r)`. -/
theorem shapeCast_11bc_bc_apply {b c : ℕ} (x : (⟨4, ![1, 1, b, c]⟩ : Shape).Idx → α)
    (h : (⟨4, ![1, 1, b, c]⟩ : Shape).ShapeCasts ⟨2, ![b, c]⟩) (q : Fin b) (r : Fin c) :
    shapeCast ⟨2, ![b, c]⟩ x h (ix2 q r) = x (ix4 (0 : Fin 1) (0 : Fin 1) q r) :=
  shapeCast_apply x h _ _ (by
    rw [Shape.rowMajor_val_four, Shape.rowMajor_val_two]
    show ((0 * 1 + 0) * b + q.val) * c + r.val = q.val * c + r.val
    rw [Nat.zero_mul, Nat.zero_add])

end Cert.Rank4Rows
-- ==== Proof.BodyJoint.lean ====
/-
  The kernel body's value at an index of its output tile.

  One grid point holds 16 encoder frames and the 64 decoder steps of one batch entry. The body projects the 16 frames
  (a `[16, 512] · [512, 640]` product plus the bias along every row) and the 64 steps (`[64, 512] · [512, 640]` plus
  bias), combines every frame with every step over `[16, 64, 640]` by giving the first a unit middle axis and the second a
  unit leading axis, takes `tanh`, flattens the pairs to `1024 = 16 · 64` rows (pair `(p, q)` is row `p · 64 + q`),
  multiplies by the `[640, 1024]` output matrix, unflattens and adds the output bias along the last axis. A change of float
  format is the identity on extended reals and each product starts from a zero accumulator, so at `(p, q, v)` the body's
  value is the specification's `logit` of frame `p` and step `q` at class `v`.
-/
import proofs.«163601_j67439576482058_1_alg».proof.Proof.Gen.KernelIdeal.Skeleton
import proofs.«163601_j67439576482058_1_alg».proof.Proof.JointSpec
import proofs.«163601_j67439576482058_1_alg».proof.Proof.LibDenseRows
import proofs.«163601_j67439576482058_1_alg».proof.Proof.LibRank3Layout
import proofs.«163601_j67439576482058_1_alg».proof.Proof.LibOuterLayout
import proofs.«163601_j67439576482058_1_alg».proof.Proof.LibRank4Rows

noncomputable section

namespace Cert.Joint.Body

open Cert.KernelIdeal Cert.KernelIdeal.Gen Idealize.ShloMosaic Idealize.ShloMosaic.ValueIdx
open Cert.DenseRows Cert.Rank3Layout OuterLayout Cert.Rank4Rows
open scoped BigOperators

/-! ## The three products keep the left operand's row and the right operand's column -/

theorem encDot_l0 (j : S16x640.Idx) (k : dot_S16x512_S512x640_S16x640_1_0_0_1_n_n.contr.Idx) :
    (dot_S16x512_S512x640_S16x640_1_0_0_1_n_n.lhsIdx j k (0 : Fin 2)).val = (j (0 : Fin 2)).val := by
  unfold DotDims.lhsIdx
  rw [dif_neg (show ¬(0 : Fin S16x512.rank) ∈ dot_S16x512_S512x640_S16x640_1_0_0_1_n_n.lhsBatch by decide),
    dif_pos (show (0 : Fin S16x512.rank) ∈ dot_S16x512_S512x640_S16x640_1_0_0_1_n_n.lhsNonContracting by decide)]
  rfl

theorem encDot_r1 (j : S16x640.Idx) (k : dot_S16x512_S512x640_S16x640_1_0_0_1_n_n.contr.Idx) :
    (dot_S16x512_S512x640_S16x640_1_0_0_1_n_n.rhsIdx j k (1 : Fin 2)).val = (j (1 : Fin 2)).val := by
  unfold DotDims.rhsIdx
  rw [dif_neg (show ¬(1 : Fin S512x640.rank) ∈ dot_S16x512_S512x640_S16x640_1_0_0_1_n_n.rhsBatch by decide),
    dif_pos (show (1 : Fin S512x640.rank) ∈ dot_S16x512_S512x640_S16x640_1_0_0_1_n_n.rhsNonContracting by decide)]
  rfl

theorem decDot_l0 (j : S64x640.Idx) (k : dot_S64x512_S512x640_S64x640_1_0_0_1_n_n.contr.Idx) :
    (dot_S64x512_S512x640_S64x640_1_0_0_1_n_n.lhsIdx j k (0 : Fin 2)).val = (j (0 : Fin 2)).val := by
  unfold DotDims.lhsIdx
  rw [dif_neg (show ¬(0 : Fin S64x512.rank) ∈ dot_S64x512_S512x640_S64x640_1_0_0_1_n_n.lhsBatch by decide),
    dif_pos (show (0 : Fin S64x512.rank) ∈ dot_S64x512_S512x640_S64x640_1_0_0_1_n_n.lhsNonContracting by decide)]
  rfl

theorem decDot_r1 (j : S64x640.Idx) (k : dot_S64x512_S512x640_S64x640_1_0_0_1_n_n.contr.Idx) :
    (dot_S64x512_S512x640_S64x640_1_0_0_1_n_n.rhsIdx j k (1 : Fin 2)).val = (j (1 : Fin 2)).val := by
  unfold DotDims.rhsIdx
  rw [dif_neg (show ¬(1 : Fin S512x640.rank) ∈ dot_S64x512_S512x640_S64x640_1_0_0_1_n_n.rhsBatch by decide),
    dif_pos (show (1 : Fin S512x640.rank) ∈ dot_S64x512_S512x640_S64x640_1_0_0_1_n_n.rhsNonContracting by decide)]
  rfl

theorem outDot_l0 (j : S1024x1024.Idx) (k : dot_S1024x640_S640x1024_S1024x1024_1_0_0_1_n_n.contr.Idx) :
    (dot_S1024x640_S640x1024_S1024x1024_1_0_0_1_n_n.lhsIdx j k (0 : Fin 2)).val = (j (0 : Fin 2)).val := by
  unfold DotDims.lhsIdx
  rw [dif_neg (show ¬(0 : Fin S1024x640.rank) ∈ dot_S1024x640_S640x1024_S1024x1024_1_0_0_1_n_n.lhsBatch by decide),
    dif_pos (show (0 : Fin S1024x640.rank) ∈ dot_S1024x640_S640x1024_S1024x1024_1_0_0_1_n_n.lhsNonContracting by decide)]
  rfl

theorem outDot_r1 (j : S1024x1024.Idx) (k : dot_S1024x640_S640x1024_S1024x1024_1_0_0_1_n_n.contr.Idx) :
    (dot_S1024x640_S640x1024_S1024x1024_1_0_0_1_n_n.rhsIdx j k (1 : Fin 2)).val = (j (1 : Fin 2)).val := by
  unfold DotDims.rhsIdx
  rw [dif_neg (show ¬(1 : Fin S640x1024.rank) ∈ dot_S1024x640_S640x1024_S1024x1024_1_0_0_1_n_n.rhsBatch by decide),
    dif_pos (show (1 : Fin S640x1024.rank) ∈ dot_S1024x640_S640x1024_S1024x1024_1_0_0_1_n_n.rhsNonContracting by decide)]
  rfl

/-! ## The stages, over arbitrary vectors of the loads' shapes -/

/-- The 16 projected encoder frames with their bias: row `p`, unit `k`. -/
theorem enc_rows_apply (P0 : Vec Ideal S1x16x1x512 .f32) (P2 : Vec Ideal S512x640 .f32) (P5 : Vec Ideal S640 .f32)
    (h1 : S1x16x1x512.ShapeCasts S16x512) (hb : FTy.bits .bf16 < FTy.bits .f32) (h2 : S640.ShapeCasts S1x640)
    (h3 : S1x640.Broadcasts S16x640) (p : Fin 16) (k : Fin 640) :
    addf (matmul dot_S16x512_S512x640_S16x640_1_0_0_1_n_n none (truncf .bf16 (shapeCast S16x512 P0 h1) hb) (truncf .bf16 P2 hb)
        (constant (F := Ideal) S16x640 .f32 0x00000000#32))
      (broadcastTo S16x640 (shapeCast S1x640 P5 h2) h3) (ix2 p k)
      = proj (fun d => P0 (ix4 (0 : Fin 1) p (0 : Fin 1) d)) P2 P5 k := by
  rw [addf_apply, matmul_zero_plain_apply dot_S16x512_S512x640_S16x640_1_0_0_1_n_n rfl rfl rfl rfl encDot_l0 encDot_r1, rowBias_cast_apply]
  unfold proj
  refine congrArg (· + P5 (ix1 k)) (Finset.sum_congr rfl fun d _ => ?_)
  rw [truncf_apply, truncf_apply, shapeCast_1a1c_ac_apply]

/-- The 64 projected decoder steps with their bias: row `q`, unit `k`. -/
theorem dec_rows_apply (P1 : Vec Ideal S1x1x64x512 .f32) (P3 : Vec Ideal S512x640 .f32) (P6 : Vec Ideal S640 .f32)
    (h1 : S1x1x64x512.ShapeCasts S64x512) (hb : FTy.bits .bf16 < FTy.bits .f32) (h2 : S640.ShapeCasts S1x640)
    (h3 : S1x640.Broadcasts S64x640) (q : Fin 64) (k : Fin 640) :
    addf (matmul dot_S64x512_S512x640_S64x640_1_0_0_1_n_n none (truncf .bf16 (shapeCast S64x512 P1 h1) hb) (truncf .bf16 P3 hb)
        (constant (F := Ideal) S64x640 .f32 0x00000000#32))
      (broadcastTo S64x640 (shapeCast S1x640 P6 h2) h3) (ix2 q k)
      = proj (fun d => P1 (ix4 (0 : Fin 1) (0 : Fin 1) q d)) P3 P6 k := by
  rw [addf_apply, matmul_zero_plain_apply dot_S64x512_S512x640_S64x640_1_0_0_1_n_n rfl rfl rfl rfl decDot_l0 decDot_r1, rowBias_cast_apply]
  unfold proj
  refine congrArg (· + P6 (ix1 k)) (Finset.sum_congr rfl fun d _ => ?_)
  rw [truncf_apply, truncf_apply, shapeCast_11bc_bc_apply]

/-- Every frame against every step: at `(p, q, k)` the `tanh` of frame `p`'s unit `k` plus step `q`'s unit `k`. -/
theorem pairs_apply (E : FVec Ideal S16x640 .f32) (D : FVec Ideal S64x640 .f32)
    (h1 : S16x640.ShapeCasts S16x1x640) (h2 : S16x1x640.Broadcasts S16x64x640)
    (h3 : S64x640.ShapeCasts S1x64x640) (h4 : S1x64x640.Broadcasts S16x64x640) (p : Fin 16) (q : Fin 64) (k : Fin 640) :
    tanh (addf (broadcastTo S16x64x640 (shapeCast S16x1x640 E h1) h2) (broadcastTo S16x64x640 (shapeCast S1x64x640 D h3) h4))
      (ix3 p q k) = Ideal.tanh (E (ix2 p k) + D (ix2 q k)) := by
  show Ideal.tanh (broadcastTo S16x64x640 (shapeCast S16x1x640 E h1) h2 (ix3 p q k)
    + broadcastTo S16x64x640 (shapeCast S1x64x640 D h3) h4 (ix3 p q k)) = _
  rw [broadcastTo_a1c_abc_apply, shapeCast_ac_a1c_apply, broadcastTo_1bc_abc_apply, ValueIdx.shapeCast_ab_1ab_apply]

/-- The output projection of the 1024 flattened pairs, unflattened, with the output bias: at `(p, q, v)`. -/
theorem classes_apply (Hd : FVec Ideal S16x64x640 .f32) (P4 : Vec Ideal S640x1024 .f32) (P7 : Vec Ideal S1024 .f32)
    (hb : FTy.bits .bf16 < FTy.bits .f32) (h1 : S16x64x640.ShapeCasts S1024x640) (h2 : S1024x1024.ShapeCasts S16x64x1024)
    (h3 : S1024.ShapeCasts S1x1x1024) (h4 : S1x1x1024.Broadcasts S16x64x1024) (p : Fin 16) (q : Fin 64) (v : Fin 1024) :
    addf (shapeCast S16x64x1024 (matmul dot_S1024x640_S640x1024_S1024x1024_1_0_0_1_n_n none (shapeCast S1024x640 (truncf .bf16 Hd hb) h1) (truncf .bf16 P4 hb)
        (constant (F := Ideal) S1024x1024 .f32 0x00000000#32)) h2)
      (broadcastTo S16x64x1024 (shapeCast S1x1x1024 P7 h3) h4) (ix3 p q v)
      = (∑ j : Fin 640, Hd (ix3 p q j) * P4 (ix2 j v)) + P7 (ix1 v) := by
  have hr : p.val * 64 + q.val < 1024 := by have := p.isLt; have := q.isLt; omega
  rw [addf_apply, fibreVector_apply, shapeCast_flat_abc_apply _ h2 p q v ⟨p.val * 64 + q.val, hr⟩ rfl,
    matmul_zero_plain_apply dot_S1024x640_S640x1024_S1024x1024_1_0_0_1_n_n rfl rfl rfl rfl outDot_l0 outDot_r1]
  refine congrArg (· + P7 (ix1 v)) (Finset.sum_congr rfl fun j _ => ?_)
  rw [shapeCast_abc_flat_apply _ h1 p q j ⟨p.val * 64 + q.val, hr⟩ rfl, truncf_apply, truncf_apply]

/-! ## The body -/

/-- The body's value at `(p, q, v)` of its tile: the joint network's output class `v` for frame `p` and step `q` of the
    loaded blocks. -/
theorem body_apply (P0 : Vec Ideal S1x16x1x512 .f32) (P1 : Vec Ideal S1x1x64x512 .f32) (P2 : Vec Ideal S512x640 .f32)
    (P3 : Vec Ideal S512x640 .f32) (P4 : Vec Ideal S640x1024 .f32) (P5 : Vec Ideal S640 .f32) (P6 : Vec Ideal S640 .f32)
    (P7 : Vec Ideal S1024 .f32) (p : Fin 16) (q : Fin 64) (v : Fin 1024) :
    k0_pay2 (F := Ideal) P0 P1 P2 P3 P4 P5 P6 P7 (ix3 p q v)
      = logit (fun d => P0 (ix4 (0 : Fin 1) p (0 : Fin 1) d)) (fun d => P1 (ix4 (0 : Fin 1) (0 : Fin 1) q d))
          P2 P5 P3 P6 P4 P7 v := by
  unfold k0_pay2
  refine (classes_apply _ P4 P7 _ _ _ _ _ p q v).trans ?_
  unfold logit hidden
  refine congrArg (· + P7 (ix1 v)) (Finset.sum_congr rfl fun j _ => ?_)
  refine congrArg (· * P4 (ix2 j v)) ?_
  refine (pairs_apply _ _ _ _ _ _ p q j).trans ?_
  rw [enc_rows_apply, dec_rows_apply]

end Cert.Joint.Body

end
-- ==== Proof.TileJoint.lean ====
/-
  From tiles to the whole array.

  The grid has one point per (batch entry, tile of 16 encoder frames): point `t` reads the 16 frames of its tile, all 64
  decoder steps of its batch entry and the whole of the six parameter arrays, and writes back the `[1, 16, 64, 1024]` tile of
  the result at block `(b, tile, 0, 0)`. What it writes is the joint network's function of the argument arrays restricted to
  that tile: frame `p` of the tile is frame `tile · 16 + p` of the batch entry, step `q` is step `q`. The 128 tiles cover the
  result array (frame `f` lies in tile `f / 16`), so after the run the array is that function everywhere.
-/
import proofs.«163601_j67439576482058_1_alg».proof.Proof.Gen.KernelIdeal.Value
import proofs.«163601_j67439576482058_1_alg».proof.Proof.BodyJoint

set_option maxRecDepth 16384

noncomputable section

namespace Cert.Joint.Tiles

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The specification at an index given by its coordinates. -/
theorem out_ix4 (enc : (⟨4, ![8, 256, 1, 512]⟩ : Shape).Idx → EReal) (dec : (⟨4, ![8, 1, 64, 512]⟩ : Shape).Idx → EReal)
    (Wenc : (⟨2, ![512, 640]⟩ : Shape).Idx → EReal) (benc : (⟨1, ![640]⟩ : Shape).Idx → EReal)
    (Wdec : (⟨2, ![512, 640]⟩ : Shape).Idx → EReal) (bdec : (⟨1, ![640]⟩ : Shape).Idx → EReal)
    (Wout : (⟨2, ![640, 1024]⟩ : Shape).Idx → EReal) (bout : (⟨1, ![1024]⟩ : Shape).Idx → EReal)
    (b : Fin 8) (f : Fin 256) (u : Fin 64) (v : Fin 1024) :
    Joint.out enc dec Wenc benc Wdec bdec Wout bout (ix4 b f u v)
      = logit (fun d => enc (ix4 b f (0 : Fin 1) d)) (fun d => dec (ix4 b (0 : Fin 1) u d)) Wenc benc Wdec bdec Wout bout v := rfl

/-- What the body leaves in the output tile, over arbitrary blocks of the eight windows' shapes: at `(0, p, q, v)` the
    joint network's class `v` for frame `p` of the encoder block and step `q` of the decoder block. -/
theorem tile_apply (x0 : Vec Ideal S1x16x1x512 .f32) (x1 : Vec Ideal S1x1x64x512 .f32) (x2 : Vec Ideal S512x640 .f32)
    (x3 : Vec Ideal S640 .f32) (x4 : Vec Ideal S512x640 .f32) (x5 : Vec Ideal S640 .f32) (x6 : Vec Ideal S640x1024 .f32)
    (x7 : Vec Ideal S1024 .f32) (p : Fin 16) (q : Fin 64) (v : Fin 1024) :
    out0_8 (F := Ideal) x0 x1 x2 x3 x4 x5 x6 x7 (ix4 (0 : Fin 1) p q v)
      = logit (fun d => x0 (ix4 (0 : Fin 1) p (0 : Fin 1) d)) (fun d => x1 (ix4 (0 : Fin 1) (0 : Fin 1) q d))
          x2 x3 x4 x5 x6 x7 v := by
  unfold out0_8
  rw [canon8_eq]
  simp only [View.ld_unit_zero (S := S1x16x1x512) zero4, View.ld_unit_zero (S := S1x1x64x512) zero4,
    View.ld_unit_zero (S := S512x640) zero2, View.ld_unit_zero (S := S640x1024) zero2,
    View.ld_unit_zero (S := S640) zero1, View.ld_unit_zero (S := S1024) zero1]
  have hy : ix8_0 (ix4 (0 : Fin 1) p q v) = ix3 p q v := funext fun a => by
    match a with
    | ⟨0, _⟩ => rfl
    | ⟨1, _⟩ => rfl
    | ⟨2, _⟩ => rfl
  show k0_pay2 x0 x1 x2 x4 x6 x3 x5 x7 (ix8_0 (ix4 (0 : Fin 1) p q v)) = _
  rw [hy]
  exact Body.body_apply x0 x1 x2 x4 x6 x3 x5 x7 p q v

/-- The printed index maps, decided over the 128 grid points: the encoder window moves with the output tile on the batch
    and frame-tile axes, the decoder window on the batch axis alone, the six parameter windows stay at block 0, and the
    output's block indices stay in their ranges. -/
theorem idx_facts : ∀ t : Fin cfg0.N,
    win0_0.index t (0 : Fin 4) = win0_8.index t (0 : Fin 4) ∧ win0_0.index t (1 : Fin 4) = win0_8.index t (1 : Fin 4)
    ∧ win0_0.index t (2 : Fin 4) = 0 ∧ win0_0.index t (3 : Fin 4) = 0
    ∧ win0_1.index t (0 : Fin 4) = win0_8.index t (0 : Fin 4) ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_8.index t (0 : Fin 4) < 8 ∧ win0_8.index t (1 : Fin 4) < 16 :=
  (by decide +kernel : ∀ t : Fin grid0.N, _)

/-- Every (batch entry, frame tile) is some grid point's output block. -/
theorem idx_onto : ∀ (b : Fin 8) (tile : Fin 16), ∃ t : Fin cfg0.N, win0_8.index t = ![b.val, tile.val, 0, 0] :=
  (by decide +kernel : ∀ (b : Fin 8) (tile : Fin 16), ∃ t : Fin grid0.N, win0_8.index t = ![b.val, tile.val, 0, 0])

/-- What point `t` writes back is tile `t` of the joint network's function of the argument arrays. -/
theorem flushed_eq (c : Dev nD) (t : Fin cfg0.N) :
    (dats m 0 c).flushed 8 t
      = ((cfg0.win 8).blk t).view.read (Elt Ideal) (Joint.out (V m c main_arg0) (V m c main_arg1) (V m c main_arg2) (V m c main_arg3) (V m c main_arg4) (V m c main_arg5) (V m c main_arg6) (V m c main_arg7)) := by
  rw [flushed8]
  obtain ⟨a00, a01, a02, a03, a10, a11, a12, a13, a20, a21, a30, a40, a41, a50, a60, a61, a70, a82, a83, hb8, ht16⟩ :=
    idx_facts t
  have w2 : iblk m c 2 t = V m c main_arg2 := by
    funext y
    show V m c main_arg2 (((cfg0.win 2).blk t).view.emb y) = V m c main_arg2 y
    refine congrArg _ (funext fun a => Fin.ext ?_)
    match a with
    | ⟨0, _⟩ => show win0_2.index t (0 : Fin 2) * 512 + 1 * (y 0).val = (y 0).val; omega
    | ⟨1, _⟩ => show win0_2.index t (1 : Fin 2) * 640 + 1 * (y 1).val = (y 1).val; omega
  have w3 : iblk m c 3 t = V m c main_arg3 := by
    funext y
    show V m c main_arg3 (((cfg0.win 3).blk t).view.emb y) = V m c main_arg3 y
    refine congrArg _ (funext fun a => Fin.ext ?_)
    match a with
    | ⟨0, _⟩ => show win0_3.index t (0 : Fin 1) * 640 + 1 * (y 0).val = (y 0).val; omega
  have w4 : iblk m c 4 t = V m c main_arg4 := by
    funext y
    show V m c main_arg4 (((cfg0.win 4).blk t).view.emb y) = V m c main_arg4 y
    refine congrArg _ (funext fun a => Fin.ext ?_)
    match a with
    | ⟨0, _⟩ => show win0_4.index t (0 : Fin 2) * 512 + 1 * (y 0).val = (y 0).val; omega
    | ⟨1, _⟩ => show win0_4.index t (1 : Fin 2) * 640 + 1 * (y 1).val = (y 1).val; omega
  have w5 : iblk m c 5 t = V m c main_arg5 := by
    funext y
    show V m c main_arg5 (((cfg0.win 5).blk t).view.emb y) = V m c main_arg5 y
    refine congrArg _ (funext fun a => Fin.ext ?_)
    match a with
    | ⟨0, _⟩ => show win0_5.index t (0 : Fin 1) * 640 + 1 * (y 0).val = (y 0).val; omega
  have w6 : iblk m c 6 t = V m c main_arg6 := by
    funext y
    show V m c main_arg6 (((cfg0.win 6).blk t).view.emb y) = V m c main_arg6 y
    refine congrArg _ (funext fun a => Fin.ext ?_)
    match a with
    | ⟨0, _⟩ => show win0_6.index t (0 : Fin 2) * 640 + 1 * (y 0).val = (y 0).val; omega
    | ⟨1, _⟩ => show win0_6.index t (1 : Fin 2) * 1024 + 1 * (y 1).val = (y 1).val; omega
  have w7 : iblk m c 7 t = V m c main_arg7 := by
    funext y
    show V m c main_arg7 (((cfg0.win 7).blk t).view.emb y) = V m c main_arg7 y
    refine congrArg _ (funext fun a => Fin.ext ?_)
    match a with
    | ⟨0, _⟩ => show win0_7.index t (0 : Fin 1) * 1024 + 1 * (y 0).val = (y 0).val; omega
  funext y
  obtain ⟨p, q, v, rfl⟩ : ∃ (p : Fin 16) (q : Fin 64) (v : Fin 1024), y = ix4 (0 : Fin 1) p q v :=
    ⟨y 1, y 2, y 3, funext fun a => by
      match a with
      | ⟨0, _⟩ => exact Fin.ext (by have h : (y 0).val < 1 := (y 0).isLt; show (y 0).val = 0; omega)
      | ⟨1, _⟩ => rfl
      | ⟨2, _⟩ => rfl
      | ⟨3, _⟩ => rfl⟩
  have hf : win0_8.index t (1 : Fin 4) * 16 + p.val < 256 := by have := p.isLt; omega
  have hemb : ((cfg0.win 8).blk t).view.emb (ix4 (0 : Fin 1) p q v)
      = ix4 (⟨win0_8.index t (0 : Fin 4), hb8⟩ : Fin 8) (⟨win0_8.index t (1 : Fin 4) * 16 + p.val, hf⟩ : Fin 256) q v :=
    funext fun a => Fin.ext (by
      match a with
      | ⟨0, _⟩ => show win0_8.index t (0 : Fin 4) * 1 + 1 * 0 = win0_8.index t (0 : Fin 4); omega
      | ⟨1, _⟩ => show win0_8.index t (1 : Fin 4) * 16 + 1 * p.val = win0_8.index t (1 : Fin 4) * 16 + p.val; omega
      | ⟨2, _⟩ => show win0_8.index t (2 : Fin 4) * 64 + 1 * q.val = q.val; omega
      | ⟨3, _⟩ => show win0_8.index t (3 : Fin 4) * 1024 + 1 * v.val = v.val; omega)
  have e0 : (fun d : Fin 512 => iblk m c 0 t (ix4 (0 : Fin 1) p (0 : Fin 1) d))
      = fun d : Fin 512 => V m c main_arg0 (ix4 (⟨win0_8.index t (0 : Fin 4), hb8⟩ : Fin 8)
          (⟨win0_8.index t (1 : Fin 4) * 16 + p.val, hf⟩ : Fin 256) (0 : Fin 1) d) := funext fun d => by
    show V m c main_arg0 (((cfg0.win 0).blk t).view.emb (ix4 (0 : Fin 1) p (0 : Fin 1) d)) = _
    refine congrArg _ (funext fun a => Fin.ext ?_)
    match a with
    | ⟨0, _⟩ => show win0_0.index t (0 : Fin 4) * 1 + 1 * 0 = win0_8.index t (0 : Fin 4); omega
    | ⟨1, _⟩ => show win0_0.index t (1 : Fin 4) * 16 + 1 * p.val = win0_8.index t (1 : Fin 4) * 16 + p.val; omega
    | ⟨2, _⟩ => show win0_0.index t (2 : Fin 4) * 1 + 1 * 0 = 0; omega
    | ⟨3, _⟩ => show win0_0.index t (3 : Fin 4) * 512 + 1 * d.val = d.val; omega
  have e1 : (fun d : Fin 512 => iblk m c 1 t (ix4 (0 : Fin 1) (0 : Fin 1) q d))
      = fun d : Fin 512 => V m c main_arg1 (ix4 (⟨win0_8.index t (0 : Fin 4), hb8⟩ : Fin 8) (0 : Fin 1) q d) :=
    funext fun d => by
    show V m c main_arg1 (((cfg0.win 1).blk t).view.emb (ix4 (0 : Fin 1) (0 : Fin 1) q d)) = _
    refine congrArg _ (funext fun a => Fin.ext ?_)
    match a with
    | ⟨0, _⟩ => show win0_1.index t (0 : Fin 4) * 1 + 1 * 0 = win0_8.index t (0 : Fin 4); omega
    | ⟨1, _⟩ => show win0_1.index t (1 : Fin 4) * 1 + 1 * 0 = 0; omega
    | ⟨2, _⟩ => show win0_1.index t (2 : Fin 4) * 64 + 1 * q.val = q.val; omega
    | ⟨3, _⟩ => show win0_1.index t (3 : Fin 4) * 512 + 1 * d.val = d.val; omega
  show out0_8 (iblk m c 0 t) (iblk m c 1 t) (iblk m c 2 t) (iblk m c 3 t) (iblk m c 4 t) (iblk m c 5 t) (iblk m c 6 t) (iblk m c 7 t) (ix4 (0 : Fin 1) p q v)
    = Joint.out (V m c main_arg0) (V m c main_arg1) (V m c main_arg2) (V m c main_arg3) (V m c main_arg4) (V m c main_arg5) (V m c main_arg6) (V m c main_arg7) (((cfg0.win 8).blk t).view.emb (ix4 (0 : Fin 1) p q v))
  rw [hemb, out_ix4]
  refine (tile_apply (iblk m c 0 t) (iblk m c 1 t) (iblk m c 2 t) (iblk m c 3 t) (iblk m c 4 t) (iblk m c 5 t) (iblk m c 6 t) (iblk m c 7 t) p q v).trans ?_
  rw [w2, w3, w4, w5, w6, w7]
  exact congrArg₂ (fun e d => logit e d (V m c main_arg2) (V m c main_arg3) (V m c main_arg4) (V m c main_arg5)
    (V m c main_arg6) (V m c main_arg7) v) e0 e1

/-- An index of the result array is in point `t`'s tile iff each coordinate is in the tile's range on its axis. -/
theorem mem_tile (t : Fin cfg0.N) (i : S8x256x64x1024.Idx) :
    i ∈ ((cfg0.win 8).blk t).view.set ↔ ∀ a : Fin 4, win0_8.index t a * S1x16x64x1024.size a ≤ (i a).val
      ∧ (i a).val < win0_8.index t a * S1x16x64x1024.size a + S1x16x64x1024.size a := by
  show i ∈ ((View.whole main_v0).slice (win0_8.rect t)).set ↔ _
  rw [View.set_slice_whole, Rect.mem_set_unit]
  exact Iff.rfl

/-- The tiles cover the result array: frame `f` of batch entry `b` lies in the tile of point `(b, f / 16)`. -/
theorem cover (i : S8x256x64x1024.Idx) :
    ∃ t : Fin cfg0.N, (cfg0.win 8).flush t = true ∧ i ∈ ((cfg0.win 8).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 16, by omega⟩
  have q0 : win0_8.index t (0 : Fin 4) = (i 0).val := congrFun ht 0
  have q1 : win0_8.index t (1 : Fin 4) = (i 1).val / 16 := congrFun ht 1
  have q2 : win0_8.index t (2 : Fin 4) = 0 := congrFun ht 2
  have q3 : win0_8.index t (3 : Fin 4) = 0 := congrFun ht 3
  refine ⟨t, flush0_8 t, ?_⟩
  rw [mem_tile]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 64 ≤ (i 2).val ∧ (i 2).val < win0_8.index t (2 : Fin 4) * 64 + 64; omega
  | ⟨3, _⟩ => show win0_8.index t (3 : Fin 4) * 1024 ≤ (i 3).val ∧ (i 3).val < win0_8.index t (3 : Fin 4) * 1024 + 1024; omega

/-- The result array after the run is the joint network's function of the argument arrays. -/
theorem final (c : Dev nD) :
    (dats m 0 c).arrAt 8 cfg0.N = Joint.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) cover

/-- The kernel's run with its result array named: the joint network of the arguments, the arguments unchanged. -/
theorem run : θ_run defs (onTc (τ := τ) (main (F := Ideal))) ⟨m, fun _ => 0, ρ⟩ fun r => ∀ c : Dev nD,
      r.2.mem ((c : Thread nD τ).loc main_v0) = Joint.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Joint.Tiles

end
-- ==== Proof.RefJoint.lean ====
/-
  The reference program's result is the joint network's function of its arguments.

  The reference projects the encoder frames and the decoder steps in their compact forms `[8, 256, 1, 640]` and
  `[8, 1, 64, 640]`, lays both over `[8, 256, 64, 640]`, adds, takes `tanh` and contracts with the output matrix. Read at an
  index, each broadcast forgets the coordinate of its unit axis, so hidden unit `j` at `(b, t, u)` is `tanh` of the encoder
  projection of frame `(b, t)` plus the decoder projection of step `(b, u)`: the specification's `hidden`.
-/
import proofs.«163601_j67439576482058_1_alg».proof.Proof.Gen.ReferenceIdeal.Read
import proofs.«163601_j67439576482058_1_alg».proof.Proof.JointSpec

noncomputable section

namespace Cert.Joint.Ref

open Cert.ReferenceIdeal Cert.ReferenceIdeal.Read Idealize.ShloMosaic Idealize.ShloMosaic.ValueIdx
open scoped BigOperators

variable (x0 : FVec Ideal S8x256x1x512 .f32) (x1 : FVec Ideal S8x1x64x512 .f32) (x2 : FVec Ideal S512x640 .f32)
  (x3 : FVec Ideal S640 .f32) (x4 : FVec Ideal S512x640 .f32) (x5 : FVec Ideal S640 .f32) (x6 : FVec Ideal S640x1024 .f32)
  (x7 : FVec Ideal S1024 .f32)

/-- The encoder projection with its bias, at `(b, t, 0, j)`. -/
theorem enc_proj_apply (i : S8x256x1x640.Idx) :
    val_main_v3 (F := Ideal) x0 x2 x3 i = proj (fun d => x0 (ix4 (i 0) (i 1) (0 : Fin 1) d)) x2 x3 (i 3) := by
  rw [val_main_v3_apply, val_main_v0_apply, val_main_v2_apply, val_main_v1_apply]
  have el : ∀ k : Fin 512, lidx_main_v0 i k = ix4 (i 0) (i 1) (0 : Fin 1) k := fun k => funext fun a => by
    match a with
    | ⟨0, _⟩ => rfl
    | ⟨1, _⟩ => rfl
    | ⟨2, _⟩ => exact Fin.ext (by have h : (i 2).val < 1 := (i 2).isLt; show (i 2).val = 0; omega)
    | ⟨3, _⟩ => rfl
  have er : ∀ k : Fin 512, ridx_main_v0 i k = ix2 k (i 3) := fun k => funext fun a => by
    match a with
    | ⟨0, _⟩ => rfl
    | ⟨1, _⟩ => rfl
  have eb : idx_main_v1 (idx_main_v2 i) = ix1 (i 3) := funext fun a => by
    match a with
    | ⟨0, _⟩ => rfl
  simp only [el, er, eb]
  rfl

/-- The decoder projection with its bias, at `(b, 0, u, j)`. -/
theorem dec_proj_apply (i : S8x1x64x640.Idx) :
    val_main_v7 (F := Ideal) x1 x4 x5 i = proj (fun d => x1 (ix4 (i 0) (0 : Fin 1) (i 2) d)) x4 x5 (i 3) := by
  rw [val_main_v7_apply, val_main_v4_apply, val_main_v6_apply, val_main_v5_apply]
  have el : ∀ k : Fin 512, lidx_main_v4 i k = ix4 (i 0) (0 : Fin 1) (i 2) k := fun k => funext fun a => by
    match a with
    | ⟨0, _⟩ => rfl
    | ⟨1, _⟩ => exact Fin.ext (by have h : (i 1).val < 1 := (i 1).isLt; show (i 1).val = 0; omega)
    | ⟨2, _⟩ => rfl
    | ⟨3, _⟩ => rfl
  have er : ∀ k : Fin 512, ridx_main_v4 i k = ix2 k (i 3) := fun k => funext fun a => by
    match a with
    | ⟨0, _⟩ => rfl
    | ⟨1, _⟩ => rfl
  have eb : idx_main_v5 (idx_main_v6 i) = ix1 (i 3) := funext fun a => by
    match a with
    | ⟨0, _⟩ => rfl
  simp only [el, er, eb]
  rfl

/-- Hidden unit `j` at `(b, t, u)`: both broadcasts forget their unit axis. -/
theorem hidden_apply (i : S8x256x64x640.Idx) :
    val_main_v11 (F := Ideal) x0 x1 x2 x3 x4 x5 i
      = hidden (fun d => x0 (ix4 (i 0) (i 1) (0 : Fin 1) d)) (fun d => x1 (ix4 (i 0) (0 : Fin 1) (i 2) d)) x2 x3 x4 x5 (i 3) := by
  rw [val_main_v11_apply, val_main_v10_apply, val_main_v8_apply, val_main_v9_apply, enc_proj_apply, dec_proj_apply]
  rfl

/-- The reference's result array is the joint network's function of the arguments. -/
theorem result_eq :
    val_main_v15 (F := Ideal) x0 x1 x2 x3 x4 x5 x6 x7 = Joint.out x0 x1 x2 x3 x4 x5 x6 x7 := by
  funext i
  rw [val_main_v15_apply, val_main_v12_apply, val_main_v14_apply, val_main_v13_apply]
  have er : ∀ k : Fin 640, ridx_main_v12 i k = ix2 k (i 3) := fun k => funext fun a => by
    match a with
    | ⟨0, _⟩ => rfl
    | ⟨1, _⟩ => rfl
  have eb : idx_main_v13 (idx_main_v14 i) = ix1 (i 3) := funext fun a => by
    match a with
    | ⟨0, _⟩ => rfl
  simp only [hidden_apply, er, eb]
  rfl

end Cert.Joint.Ref

end
-- ==== Proof.lean ====
/-
  The joint network of a transducer, tiled, against its plain form.

  Both programs compute, for a batch entry `b`, an encoder frame `t`, a decoder step `u` and an output class `v`,

      out[b, t, u, v] = Σ_j tanh( (Σ_d enc[b, t, 0, d] · W_enc[d, j] + b_enc[j])
                                + (Σ_d dec[b, 0, u, d] · W_dec[d, j] + b_dec[j]) ) · W_out[j, v]  +  b_out[v]

  (Proof/JointSpec.lean). The reference projects the two streams in their compact forms, lays them over the four axes,
  adds, takes `tanh` and contracts with the output matrix (Proof/RefJoint.lean reads its sixteen operations at an index).
  The kernel does the same on one tile of 16 frames against the 64 steps of one batch entry per grid point, the pairs
  flattened to 1024 rows for one matrix product (Proof/BodyJoint.lean reads the body at an index of the tile), and the 128
  tiles cover the result (Proof/TileJoint.lean). On the extended reals a change of float format is the identity and a
  product into a zero accumulator is the plain sum over the contraction index, so the two sides are the same sums of the same
  terms in the same order: no law of arithmetic is used, and the inputs' finiteness is never needed.

  The three frames are the generated ones (the reference's is its generated run with the result dropped). No operation of
  the kernel was rewritten when it was restated on extended reals, so that it is its own idealization holds trivially.
-/
import proofs.«163601_j67439576482058_1_alg».proof.Defs
import proofs.«163601_j67439576482058_1_alg».proof.Proof.Gen.Kernel
import proofs.«163601_j67439576482058_1_alg».proof.Proof.Gen.Kernel.Skeleton
import proofs.«163601_j67439576482058_1_alg».proof.Proof.Gen.Kernel.Launch
import proofs.«163601_j67439576482058_1_alg».proof.Proof.Gen.Kernel.Points
import proofs.«163601_j67439576482058_1_alg».proof.Proof.Gen.Kernel.Frame
import proofs.«163601_j67439576482058_1_alg».proof.Proof.Gen.KernelIdeal
import proofs.«163601_j67439576482058_1_alg».proof.Proof.Gen.KernelIdeal.Skeleton
import proofs.«163601_j67439576482058_1_alg».proof.Proof.Gen.KernelIdeal.Launch
import proofs.«163601_j67439576482058_1_alg».proof.Proof.Gen.KernelIdeal.Points
import proofs.«163601_j67439576482058_1_alg».proof.Proof.Gen.KernelIdeal.Frame
import proofs.«163601_j67439576482058_1_alg».proof.Proof.Gen.ReferenceIdeal
import proofs.«163601_j67439576482058_1_alg».proof.Proof.Gen.KernelIdeal.Value
import proofs.«163601_j67439576482058_1_alg».proof.Proof.Gen.ReferenceIdeal.Run
import proofs.«163601_j67439576482058_1_alg».proof.Proof.Gen.ReferenceIdeal.Read
import proofs.«163601_j67439576482058_1_alg».proof.Proof.Gen.Pre_finite_inputs
import proofs.«163601_j67439576482058_1_alg».proof.Proof.TileJoint
import proofs.«163601_j67439576482058_1_alg».proof.Proof.RefJoint
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the eight arguments, the kernel's result array and the reference's both end at the joint
    network's function of those arguments. -/
theorem algebraic : Cert.algebraic_KernelIdeal_ReferenceIdeal := by
  intro m ρ m' ρ' _ hagree
  refine ⟨_, Cert.Joint.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Joint.Ref.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
